-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩
abbrev S4096x512 : Shape := ⟨2, ![4096, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4x2048x4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BlockEntry.lean ====
/-
  One entry of what a grid point stores. The body multiplies the point's 512 rows of the flattened input by the
  point's 512 rows of the sign matrix (the second factor enters the product transposed), starting from the zero
  accumulator, and adds the point's stretch of the bias row to every row. Over the extended reals the change of
  float format before the product is the identity, so entry (p, q) of the stored block is
      Σ_{k < 4096} rows(p, k) · signs(q, k) + bias(0, q).
-/
import proofs.«166552_j41523743818396_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Hand

open Cert.KernelIdeal Cert.KernelIdeal.Gen

/-- The product's dimension record: rows by contraction times contraction by columns. -/
abbrev MM : DotDims S512x4096 S4096x512 S512x512 := dot_S512x4096_S4096x512_S512x512_1_0_0_1_n_n

/-- The left factor of output entry `i` is read in row `i 0` … -/
theorem lhs_row (i : S512x512.Idx) (r : MM.contr.Idx) : (MM.lhsIdx i r 0).val = (i 0).val := by
  unfold DotDims.lhsIdx
  rw [dif_neg (show ¬(0 : Fin S512x4096.rank) ∈ MM.lhsBatch by decide), dif_pos (show (0 : Fin S512x4096.rank) ∈ MM.lhsNonContracting by decide)]
  rfl
/-- … at the contraction position; -/
theorem lhs_col (i : S512x512.Idx) (r : MM.contr.Idx) : (MM.lhsIdx i r 1).val = (r ⟨0, by decide⟩).val :=
  MM.lhsIdx_val_of_single rfl i r
/-- the right factor in row "contraction position" … -/
theorem rhs_row (i : S512x512.Idx) (r : MM.contr.Idx) : (MM.rhsIdx i r 0).val = (r ⟨0, by decide⟩).val :=
  MM.rhsIdx_val_of_single rfl i r
/-- … and column `i 1`. -/
theorem rhs_col (i : S512x512.Idx) (r : MM.contr.Idx) : (MM.rhsIdx i r 1).val = (i 1).val := by
  unfold DotDims.rhsIdx
  rw [dif_neg (show ¬(1 : Fin S4096x512.rank) ∈ MM.rhsBatch by decide), dif_pos (show (1 : Fin S4096x512.rank) ∈ MM.rhsNonContracting by decide)]
  rfl

/-- Entry (p, q) of the stored block: the row-p, row-q inner product over the 4096 contraction positions, plus
    the bias row's entry q. -/
theorem stored_entry (x0 : FVec Ideal S512x4096 .f32) (x1 : FVec Ideal S512x4096 .bf16) (x2 : FVec Ideal S1x512 .f32)
    (p q : Fin 512) :
    k0_pay1 (F := Ideal) x0 x1 x2 (ix2 p q)
      = (∑ k : Fin 4096, x0 (ix2 p k) * x1 (ix2 q k)) + x2 (ix2 (0 : Fin 1) q) := by
  unfold k0_pay1
  dsimp only
  refine congrArg₂ (· + ·) ?_ ?_
  · refine (Ideal.matmul_constant_zero_apply MM none _ _ (ix2 p q)).trans ?_
    rw [← Equiv.sum_comp (contrEquiv1 MM 4096 rfl rfl).symm]
    refine Finset.sum_congr rfl fun k _ => ?_
    have hk := contrEquiv1_symm_val MM 4096 rfl rfl k
    have el : MM.lhsIdx (ix2 p q) ((contrEquiv1 MM 4096 rfl rfl).symm k) = ix2 p k := funext fun a => Fin.ext (by
      match a with
      | ⟨0, _⟩ => exact lhs_row _ _
      | ⟨1, _⟩ => exact (lhs_col _ _).trans hk)
    have er : MM.rhsIdx (ix2 p q) ((contrEquiv1 MM 4096 rfl rfl).symm k) = ix2 k q := funext fun a => Fin.ext (by
      match a with
      | ⟨0, _⟩ => exact (rhs_row _ _).trans hk
      | ⟨1, _⟩ => exact rhs_col _ _)
    rw [el, er, truncf_apply, shapeCast_self, transpose_ix2_apply, shapeCast_self]
  · rw [broadcastTo_1b_ab_apply, shapeCast_self]

end Cert.KernelIdeal.Hand

end
-- ==== Proof.SignLinear.lean ====
/-
  The function both programs compute, over the extended reals.

  For an input x of shape [4, 2048, 4096], a weight w of shape [4096, 4096] and a bias b of shape [4096],
      y(a, s, o) = Σ_{k < 4096} x(a, s, k) · sign(w(o, k)) + b(o).
  The pipelined program works on the input flattened to 8192 rows, on the matrix of signs and on the bias as a
  one-row matrix; on those the same function reads
      Y(r, o) = Σ_{k < 4096} X(r, k) · S(o, k) + B(0, o),
  and y(a, s, o) = Y(2048·a + s, o) when X is x flattened, S = sign ∘ w and B is b as a row.
  Only sums and products occur, and the same summands meet in the same order on both sides, so no law of the
  extended reals beyond congruence is needed, and finiteness of the inputs plays no role.
-/
import Idealize.ShloMosaic.PureOps.Ideal
import Idealize.ShloMosaic.Lib.ValueIdx

noncomputable section

open Idealize.ShloMosaic Idealize.ShloMosaic.ValueIdx

namespace Cert.SignLinear

abbrev Sx : Shape := ⟨3, ![4, 2048, 4096]⟩
abbrev Sw : Shape := ⟨2, ![4096, 4096]⟩
abbrev Sb : Shape := ⟨1, ![4096]⟩
abbrev Sflat : Shape := ⟨2, ![8192, 4096]⟩
abbrev Srow : Shape := ⟨2, ![1, 4096]⟩

/-- The flattened form: row `r` of `X` against row `o` of `S`, plus the bias row's entry `o`. -/
def flat (X : Sflat.Idx → EReal) (S : Sw.Idx → EReal) (B : Srow.Idx → EReal) : Sflat.Idx → EReal :=
  fun j => (∑ k : Fin 4096, X (ix2 (j 0) k) * S (ix2 (j 1) k)) + B (ix2 (0 : Fin 1) (j 1))

/-- The result: `x(a, s, ·)` against the signs of `w(o, ·)`, plus `b(o)`. -/
def result (x : Sx.Idx → EReal) (w : Sw.Idx → EReal) (b : Sb.Idx → EReal) : Sx.Idx → EReal :=
  fun i => (∑ k : Fin 4096, x (ix3 (i 0) (i 1) k) * Ideal.sign (w (ix2 (i 2) k))) + b (ix1 (i 2))

end Cert.SignLinear

end
-- ==== Proof.RegionArray.lean ====
/-
  What the region leaves in its output array. Point t of the 16 × 8 grid reads block-row `t₀` of the flattened
  input (512 rows, every column), block-row `t₁` of the sign matrix and columns 512·t₁ … 512·t₁ + 511 of the bias
  row, and writes block (t₀, t₁) of the output. So entry (p, q) of what it writes is the flattened function at
  (512·t₀ + p, 512·t₁ + q); the 128 blocks tile the 8192 × 4096 output, hence the array ends holding that function
  of the three arrays the region was launched on.
-/
import proofs.«166552_j41523743818396_2_alg».proof.Proof.Gen.KernelIdeal.Frame
import proofs.«166552_j41523743818396_2_alg».proof.Proof.BlockEntry
import proofs.«166552_j41523743818396_2_alg».proof.Proof.SignLinear
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.SignLinear

variable (m : (ℓ : Loc nD τ sig) → Buf (Elt Ideal) ℓ)

theorem offsets_zero : (![0, 0] : Fin 2 → Nat) = fun _ => 0 := funext fun a => by fin_cases a <;> rfl

/-- How the four windows move over the grid: the input rows follow the output's block-row, the sign rows and the
    bias columns follow the output's block-column, and every other block coordinate stays at zero. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the 16 × 8 tiling is some point's. -/
theorem block_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- An entry of a stored block is the flattened function at an index `j`, as soon as the block's three inputs are the
    arrays' rows `j 0`, `j 1` and the bias entry `j 1`. -/
theorem entry_is_flat (X : Sflat.Idx → EReal) (S : Sw.Idx → EReal) (B : Srow.Idx → EReal)
    (x0 : FVec Ideal S512x4096 .f32) (x1 : FVec Ideal S512x4096 .bf16) (x2 : FVec Ideal S1x512 .f32)
    (p q : Fin 512) (j : Sflat.Idx)
    (h0 : ∀ k : Fin 4096, x0 (ix2 p k) = X (ix2 (j 0) k)) (h1 : ∀ k : Fin 4096, x1 (ix2 q k) = S (ix2 (j 1) k))
    (h2 : x2 (ix2 (0 : Fin 1) q) = B (ix2 (0 : Fin 1) (j 1))) :
    k0_pay1 (F := Ideal) x0 x1 x2 (ix2 p q) = flat X S B j := by
  refine (stored_entry x0 x1 x2 p q).trans ?_
  unfold flat
  rw [h2]
  exact congrArg (· + _) (Finset.sum_congr rfl fun k _ => by rw [h0 k, h1 k])

/-- What point `t` writes back is block `t` of the flattened function of the arrays the region finds. -/
theorem flushed_eq (c : Dev nD) (t : Fin cfg0.N) :
    (dats m 0 c).flushed 3 t = ((cfg0.win 3).blk t).view.read (Elt Ideal)
      (flat (V m c main_v0) (V m c main_v3) (V m c main_v1)) := by
  show (cfg0.win 3).cut (grid0.coords t) ((dats m 0 c).after 3 t) = _
  rw [after0_3]
  unfold out0_3
  rw [View.canon_unit_zero offsets_zero]
  simp only [View.ld_unit_zero (S := S512x4096) offsets_zero, View.ld_unit_zero (S := S1x512) offsets_zero]
  obtain ⟨e00, e01, e10, e11, e20, e21, b0, b1⟩ := block_indices t
  funext y
  obtain ⟨p, q, rfl⟩ : ∃ (p q : Fin 512), y = ix2 p q := ⟨y 0, y 1, eq_ix2 y⟩
  show k0_pay1 (F := Ideal) (iblk m c 0 t) (iblk m c 1 t) (iblk m c 2 t) (ix2 p q)
    = flat (V m c main_v0) (V m c main_v3) (V m c main_v1) (((cfg0.win 3).blk t).view.emb (ix2 p q))
  refine entry_is_flat _ _ _ (iblk m c 0 t) (iblk m c 1 t) (iblk m c 2 t) p q _ (fun k => ?_) (fun k => ?_) ?_
  · show V m c main_v0 (((cfg0.win 0).blk t).view.emb (ix2 p k)) = V m c main_v0 _
    refine congrArg (V m c main_v0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  · show V m c main_v3 (((cfg0.win 1).blk t).view.emb (ix2 q k)) = V m c main_v3 _
    refine congrArg (V m c main_v3) (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 4096 + 1 * k.val = k.val; omega
  · show V m c main_v1 (((cfg0.win 2).blk t).view.emb (ix2 (0 : Fin 1) q)) = V m c main_v1 _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega

/-- An index lies in point `t`'s output block iff each coordinate lies in the block's 512-long range. -/
theorem mem_block (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v4).slice (win0_3.rect t)).set ↔ _
  rw [View.set_slice_whole, Rect.mem_set_unit]
  exact Iff.rfl

/-- Every index of the output is in the block of the point at block-row `i₀ / 512`, block-column `i₁ / 512`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The output array after the last point: the flattened function of the arrays the region was launched on. -/
theorem region_result (c : Dev nD) :
    (dats m 0 c).arrAt 3 cfg0.N = flat (V m c main_v0) (V m c main_v3) (V m c main_v1) :=
  (dats m 0 c).arrAt_eq_of_cover 3 _ (fun t _ => flushed_eq m c t) covered

end Cert.KernelIdeal.Hand

end
-- ==== Proof.KernelRun.lean ====
/-
  The pipelined program, read whole. Before the region the host flattens the input to 8192 rows, writes the bias as
  one row, takes the sign of every weight and changes its float format (the identity over the extended reals);
  after the region it gives the 8192 × 4096 output its three axes back. Row 2048·a + s of the flattened input is
  x(a, s, ·) and entry (2048·a + s, o) of the output becomes entry (a, s, o), so the program's result is
      y(a, s, o) = Σ_k x(a, s, k) · sign(w(o, k)) + b(o).
-/
import proofs.«166552_j41523743818396_2_alg».proof.Proof.RegionArray
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.SignLinear

variable (m : (ℓ : Loc nD τ sig) → Buf (Elt Ideal) ℓ) (ρ : Dev nD → PrngReg)

/-- The region finds the input flattened, … -/
theorem found_rows (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- … the bias as one row, … -/
theorem found_bias (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl

/-- … and the signs of the weights (after a change of format). -/
theorem found_signs (c : Dev nD) : (V m c main_v3 : S4096x4096.Idx → EReal)
    = truncf .bf16 (Host.sign (F := Ideal) (m ((c : Thread nD τ).loc main_arg1))) bitsLt_bf16_f32 := by
  show StableHlo.after hostOps0 (fun b => m (c, b)) (Proc.devRef .tc main_v3) = _
  after_results

/-- The flattened function of the flattened arguments, given its three axes back, is the result. -/
theorem unflatten (x : Sx.Idx → EReal) (w : Sw.Idx → EReal) (b : Sb.Idx → EReal) :
    shapeCast S4x2048x4096
      (flat (shapeCast S8192x4096 x shapeCasts_S4x2048x4096_S8192x4096)
        (truncf .bf16 (Host.sign (F := Ideal) (s := S4096x4096) (φ := .f32) w) bitsLt_bf16_f32)
        (shapeCast S1x4096 b shapeCasts_S4096_S1x4096))
      shapeCasts_S8192x4096_S4x2048x4096 = result x w b := by
  funext i
  obtain ⟨a, s, o, rfl⟩ : ∃ (a : Fin 4) (s : Fin 2048) (o : Fin 4096), i = ix3 a s o := ⟨i 0, i 1, i 2, eq_ix3 i⟩
  have hr : a.val * 2048 + s.val < 8192 := by have := a.isLt; have := s.isLt; omega
  refine (shapeCast_apply _ shapeCasts_S8192x4096_S4x2048x4096 (ix3 a s o) (ix2 (⟨a.val * 2048 + s.val, hr⟩ : Fin 8192) o) (by
    rw [Shape.rowMajor_val_three, Shape.rowMajor_val_two]; rfl)).trans ?_
  unfold flat result
  refine congrArg₂ (· + ·) (Finset.sum_congr rfl fun k _ => congrArg₂ (· * ·) ?_ rfl) ?_
  · exact shapeCast_apply x shapeCasts_S4x2048x4096_S8192x4096 _ (ix3 a s k) (by
      rw [Shape.rowMajor_val_three, Shape.rowMajor_val_two]; rfl)
  · exact shapeCast_a_1a_apply b shapeCasts_S4096_S1x4096 (0 : Fin 1) o

/-- After the region the host gives the output array its three axes back. -/
theorem tail_result (c : Dev nD) :
    (Pipeline.afterTail₀ cfgs (dats m) 0 (V0 m) [hostOps1] c main_v5 : S4x2048x4096.Idx → EReal)
      = result (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = flat (V m c main_v0) (V m c main_v3) (V m c main_v1) :=
    (Pipeline.withArrays_arr spec0 launch0.win.arr_inj c _ _ 3).trans (region_result m c)
  rw [e, found_rows, found_signs, found_bias]
  exact unflatten _ _ _

/-- The run: every weakly fair execution ends with the result array at `result` of the arguments as launched, and
    the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.ReferenceResult.lean ====
/-
  The reference, read at an index. It takes the sign of every weight, contracts the input's last axis with the sign
  matrix's second axis and adds the bias broadcast along the first two axes; at (a, s, o) that is
      Σ_k x(a, s, k) · sign(w(o, k)) + b(o),
  the very sum the pipelined program ends with.
-/
import proofs.«166552_j41523743818396_2_alg».proof.Proof.Gen.ReferenceIdeal.Read
import proofs.«166552_j41523743818396_2_alg».proof.Proof.SignLinear

noncomputable section

open Idealize.ShloMosaic Idealize.ShloMosaic.ValueIdx

namespace Cert.ReferenceIdeal.Hand

open Cert.ReferenceIdeal Cert.ReferenceIdeal.Read Cert.SignLinear

/-- The reference's last stage is the result, index by index. -/
theorem stage_is_result (x : Sx.Idx → EReal) (w : Sw.Idx → EReal) (b : Sb.Idx → EReal) :
    val_main_v4 (F := Ideal) x w b = result x w b := by
  funext i
  obtain ⟨a, s, o, rfl⟩ : ∃ (a : Fin 4) (s : Fin 2048) (o : Fin 4096), i = ix3 a s o := ⟨i 0, i 1, i 2, eq_ix3 i⟩
  have el : ∀ k : Fin 4096, lidx_main_v1 (ix3 a s o) k = ix3 a s k := fun k => funext fun d => Fin.ext (by
    match d with | ⟨0, _⟩ => rfl | ⟨1, _⟩ => rfl | ⟨2, _⟩ => rfl)
  have er : ∀ k : Fin 4096, ridx_main_v1 (ix3 a s o) k = ix2 o k := fun k => funext fun d => Fin.ext (by
    match d with | ⟨0, _⟩ => rfl | ⟨1, _⟩ => rfl)
  have eb : idx_main_v2 (idx_main_v3 (ix3 a s o)) = ix1 o := funext fun d => Fin.ext (by
    match d with | ⟨0, _⟩ => rfl)
  rw [val_main_v4_apply, val_main_v1_apply, val_main_v3_apply, val_main_v2_apply, eb, Ideal.addf_def]
  unfold result
  refine congrArg₂ (· + ·) (Finset.sum_congr rfl fun k _ => ?_) rfl
  rw [el k, er k, val_main_v0_apply, Ideal.hostUnary_sign_def]

end Cert.ReferenceIdeal.Hand

end
-- ==== Proof.lean ====
/-
  The pipelined program and its reference compute one function over the extended reals:
      y(a, s, o) = Σ_{k < 4096} x(a, s, k) · sign(w(o, k)) + b(o)
  for x of shape [4, 2048, 4096], w of shape [4096, 4096] and b of shape [4096].

  The pipelined program flattens x to 8192 rows, takes the signs of w on the host, and on a 16 × 8 grid multiplies
  512 rows of the flattened input by 512 rows of the sign matrix, adds the matching stretch of the bias and writes
  one 512 × 512 block of the output; the blocks tile the output, which is finally given its three axes back. The
  reference contracts x with the sign matrix in one step and adds the broadcast bias. Index by index both are the
  sum above, with the same summands in the same order (the zero accumulator the product starts from is absorbed,
  and a change of float format is the identity), so the two results are equal whatever the inputs hold: the
  finiteness precondition is not used. The idealized program is the printed program's own text, so nothing is
  owed for the idealization; each program's termination, freedom from faults and unchanged arguments come from
  its run.
-/
import proofs.«166552_j41523743818396_2_alg».proof.Defs
import proofs.«166552_j41523743818396_2_alg».proof.Proof.Gen.Kernel
import proofs.«166552_j41523743818396_2_alg».proof.Proof.Gen.Kernel.Frame
import proofs.«166552_j41523743818396_2_alg».proof.Proof.Gen.KernelIdeal
import proofs.«166552_j41523743818396_2_alg».proof.Proof.Gen.KernelIdeal.Frame
import proofs.«166552_j41523743818396_2_alg».proof.Proof.Gen.ReferenceIdeal
import proofs.«166552_j41523743818396_2_alg».proof.Proof.Gen.Pre_finite_inputs
import proofs.«166552_j41523743818396_2_alg».proof.Proof.Gen.ReferenceIdeal.Run
import proofs.«166552_j41523743818396_2_alg».proof.Proof.Gen.ReferenceIdeal.Read
import proofs.«166552_j41523743818396_2_alg».proof.Proof.KernelRun
import proofs.«166552_j41523743818396_2_alg».proof.Proof.ReferenceResult
import Idealize.ShloMosaic.Adequacy
import Idealize.ShloMosaic.Init

noncomputable section

namespace Cert.Proof

open Idealize.ShloMosaic Idealize.SL.Sem

/-- The word-level program runs to the end with its arguments unchanged. -/
theorem frame_kernel : Cert.frame_Kernel := fun m ρ _ => Cert.Kernel.Gen.frame m ρ

/-- So does the idealized program. -/
theorem frame_ideal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `y` of the (agreeing) arguments. -/
theorem algebraic : Cert.algebraic_KernelIdeal_ReferenceIdeal := by
  intro m ρ m' ρ' _ hagree
  refine ⟨fun c => Cert.SignLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Hand.stage_is_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
